-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S96x64 : Shape := ⟨2, ![96, 64]⟩
abbrev S64 : Shape := ⟨1, ![64]⟩
abbrev S160x64 : Shape := ⟨2, ![160, 64]⟩
abbrev S64x32 : Shape := ⟨2, ![64, 32]⟩
abbrev S32 : Shape := ⟨1, ![32]⟩
abbrev S1000000 : Shape := ⟨1, ![1000000]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S160x64 : S_.BroadcastsInDim S160x64 (![] : Fin 0 → Fin S160x64.rank)
  reducesTo_S160x64_S_d0_1 : S160x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S64x32 .f32) (main_arg12 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg11
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg7 : FVec F S160x64 .f32) (main_arg8 : FVec F S64 .f32) (main_arg9 : FVec F S64 .f32) (main_arg10 : FVec F S64 .f32) (main_arg11 : FVec F S64x32 .f32) (main_arg12 : FVec F S32 .f32) (main_v33 : IVec S_ 1) : IVec S_ 1 :=
  let main_v34 : FVec F S160x64 .f32 := Host.absf main_arg7
  let main_cst_12 : FVec F S_ .f32 := constant S_ .f32 0x7F800000#32
  let main_v35 : FVec F S160x64 .f32 := broadcastInDim S160x64 ![] bcast_S_S160x64 main_cst_12
  let main_v36 : IVec S160x64 1 := cmpf .olt main_v34 main_v35
  let main_c_13 : IVec S_ 1 := constantI S_ 1 1#1
  let main_v37 : IVec S_ 1 := (fun x v => Host.reduce IntOp.andi x v reducesTo_S160x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S64 .f32) (main_arg6 : FVec F S64 .f32) (main_arg7 : FVec F S160x64 .f32) (main_arg8 : FVec F S64 .f32) (main_arg9 : FVec F S64 .f32) (main_arg10 : FVec F S64 .f32) (main_arg11 : FVec F S64x32 .f32) (main_arg12 : FVec F S32 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1000000x32 .f32) (main_arg1 : FVec F S1000000x32 .f32) (main_arg2 : FVec F S1000000x32 .f32) (main_arg3 : FVec F S96x64 .f32) (main_arg4 : FVec F S64 .f32) (main_arg5 : FVec F S64 .f32) (main_arg6 : FVec F S64 .f32) (main_arg7 : FVec F S160x64 .f32) (main_arg8 : FVec F S64 .f32) (main_arg9 : FVec F S64 .f32) (main_arg10 : FVec F S64 .f32) (main_arg11 : FVec F S64x32 .f32) (main_arg12 : FVec F S32 .f32) (main_arg13 : IVec S1000000 32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x32 .f32 := Host.absf main_arg1
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S1000000x32 .f32 := Host.absf main_arg2
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S96x64 .f32 := Host.absf main_arg3
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg4 main_arg5 main_arg6 main_arg7 main_arg8 main_arg9 main_arg10 main_arg11 main_arg12 main_v13 main_v16
-- ==== Kernel.lean ====
abbrev S1000000x32 : Shape := ⟨2, ![1000000, 32]⟩
abbrev S96x64 : Shape := ⟨2, ![96, 64]⟩
abbrev S64 : Shape := ⟨1, ![64]⟩
abbrev S160x64 : Shape := ⟨2, ![160, 64]⟩
abbrev S64x32 : Shape := ⟨2, ![64, 32]⟩
abbrev S32 : Shape := ⟨1, ![32]⟩
abbrev S1000000 : Shape := ⟨1, ![1000000]⟩
abbrev S5000x32 : Shape := ⟨2, ![5000, 32]⟩
abbrev S5000x96 : Shape := ⟨2, ![5000, 96]⟩
abbrev S5000x64 : Shape := ⟨2, ![5000, 64]⟩
abbrev S1x64 : Shape := ⟨2, ![1, 64]⟩
abbrev S5000 : Shape := ⟨1, ![5000]⟩
abbrev S5000x1 : Shape := ⟨2, ![5000, 1]⟩
abbrev S64x64 : Shape := ⟨2, ![64, 64]⟩
abbrev S1x32 : Shape := ⟨2, ![1, 32]⟩

abbrev nBuf : Space → Nat
  | .hbm => 18
  | .vmem => 18
  | .smem => 0
  | _ => 0

abbrev bufTy : (tb : Table) → Fin (tcTables nBuf tb) → BufTy
  | .hbm, ⟨0, _⟩ => ⟨S1000000x32, .f32⟩
  | .hbm, ⟨1, _⟩ => ⟨S1000000x32, .f32⟩
  | .hbm, ⟨2, _⟩ => ⟨S1000000x32, .f32⟩
  | .hbm, ⟨3, _⟩ => ⟨S96x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S160x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1000000, .i32⟩
  | .hbm, ⟨14, _⟩ => ⟨S96x64, .bf16⟩
  | .hbm, ⟨15, _⟩ => ⟨S160x64, .bf16⟩
  | .hbm, ⟨16, _⟩ => ⟨S64x32, .bf16⟩
  | .hbm, ⟨17, _⟩ => ⟨S1000000x32, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S96x64, .bf16⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S160x64, .bf16⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S64x32, .bf16⟩
  | .local _ .vmem, ⟨15, _⟩ => ⟨S32, .f32⟩
  | .local _ .vmem, ⟨16, _⟩ => ⟨S5000x32, .f32⟩
  | .local _ .vmem, ⟨17, _⟩ => ⟨S5000x32, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S160x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  concatenates_S5000x32_S5000x32_S5000x32_S5000x96_d1 : Shape.Concatenates [S5000x32, S5000x32, S5000x32] S5000x96 1
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S160x64_S64x64_0_0 : ∀ a, (![0, 0] : Fin 2 → Nat) a + S64x64.size a ≤ S160x64.size a
  h_S64x64 : 0 < S64x64.numel
  shapeCasts_S64x64_S64x64 : S64x64.ShapeCasts S64x64
  inb_S160x64_S96x64_64_0 : ∀ a, (![64, 0] : Fin 2 → Nat) a + S96x64.size a ≤ S160x64.size a
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  dot_S5000x96_S96x64_S5000x64_1_0_0_1_n_n_wf : DotDims.WF S5000x96 S96x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S1000000x32.size a
  hwx0_0 : ∀ i : grid0.Coords, EltTy.bits .f32 = 32 ∨ (Rect.block (s := S1000000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S1000000x32.size a
  hwx0_1 : ∀ i : grid0.Coords, EltTy.bits .f32 = 32 ∨ (Rect.block (s := S1000000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S1000000x32.size a
  hwx0_2 : ∀ i : grid0.Coords, EltTy.bits .f32 = 32 ∨ (Rect.block (s := S1000000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x64.size a ≤ S96x64.size a
  hwx0_3 : ∀ i : grid0.Coords, EltTy.bits .bf16 = 32 ∨ (Rect.block (s := S96x64) S96x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S160x64.size a ≤ S160x64.size a
  hwx0_7 : ∀ i : grid0.Coords, EltTy.bits .bf16 = 32 ∨ (Rect.block (s := S160x64) S160x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .bf16 = 32 ∨ (Rect.block (s := S64x32) S64x32.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32.size a ≤ S32.size a
  hwx0_12 : ∀ i : grid0.Coords, EltTy.bits .f32 = 32 ∨ (Rect.block (s := S32) S32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x32.size a ≤ S1000000x32.size a
  hwx0_13 : ∀ i : grid0.Coords, EltTy.bits .f32 = 32 ∨ (Rect.block (s := S1000000x32) S5000x32.size (cc0_transform_13 i) (hinb0_13 i)).WholeWords (EltTy.packing .f32)

variable [Facts₀]

def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S96x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S160x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S5000x32.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x32 : Shape := ⟨2, ![1000000, 32]⟩
abbrev S96x64 : Shape := ⟨2, ![96, 64]⟩
abbrev S64 : Shape := ⟨1, ![64]⟩
abbrev S160x64 : Shape := ⟨2, ![160, 64]⟩
abbrev S64x32 : Shape := ⟨2, ![64, 32]⟩
abbrev S32 : Shape := ⟨1, ![32]⟩
abbrev S1000000 : Shape := ⟨1, ![1000000]⟩
abbrev S1000000x96 : Shape := ⟨2, ![1000000, 96]⟩
abbrev S1000000x64 : Shape := ⟨2, ![1000000, 64]⟩
abbrev S1x64 : Shape := ⟨2, ![1, 64]⟩
abbrev S_ : Shape := ⟨0, ![]⟩
abbrev S1000000x1 : Shape := ⟨2, ![1000000, 1]⟩
abbrev S1000000x160 : Shape := ⟨2, ![1000000, 160]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000x32, .f32⟩
  | .hbm, ⟨2, _⟩ => ⟨S1000000x32, .f32⟩
  | .hbm, ⟨3, _⟩ => ⟨S96x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S160x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1000000, .i32⟩
  | .hbm, ⟨14, _⟩ => ⟨S1000000x96, .f32⟩
  | .hbm, ⟨15, _⟩ => ⟨S1000000x64, .f32⟩
  | .hbm, ⟨16, _⟩ => ⟨S1x64, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S1000000, .f32⟩
  | .hbm, ⟨24, _⟩ => ⟨S1000000x1, .f32⟩
  | .hbm, ⟨25, _⟩ => ⟨S_, .f32⟩
  | .hbm, ⟨26, _⟩ => ⟨S1000000x1, .f32⟩
  | .hbm, ⟨27, _⟩ => ⟨S1000000x1, .f32⟩
  | .hbm, ⟨28, _⟩ => ⟨S1000000x64, .f32⟩
  | .hbm, ⟨29, _⟩ => ⟨S1000000x64, .f32⟩
  | .hbm, ⟨30, _⟩ => ⟨S1000000x64, .f32⟩
  | .hbm, ⟨31, _⟩ => ⟨S_, .f32⟩
  | .hbm, ⟨32, _⟩ => ⟨S1000000, .f32⟩
  | .hbm, ⟨33, _⟩ => ⟨S1000000x1, .f32⟩
  | .hbm, ⟨34, _⟩ => ⟨S_, .f32⟩
  | .hbm, ⟨35, _⟩ => ⟨S1000000x1, .f32⟩
  | .hbm, ⟨36, _⟩ => ⟨S1000000x1, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S1000000x1, .f32⟩
  | .hbm, ⟨41, _⟩ => ⟨S1000000x1, .f32⟩
  | .hbm, ⟨42, _⟩ => ⟨S1000000x1, .f32⟩
  | .hbm, ⟨43, _⟩ => ⟨S1000000x64, .f32⟩
  | .hbm, ⟨44, _⟩ => ⟨S1000000x64, .f32⟩
  | .hbm, ⟨45, _⟩ => ⟨S1x64, .f32⟩
  | .hbm, ⟨46, _⟩ => ⟨S1000000x64, .f32⟩
  | .hbm, ⟨47, _⟩ => ⟨S1000000x64, .f32⟩
  | .hbm, ⟨48, _⟩ => ⟨S1x64, .f32⟩
  | .hbm, ⟨49, _⟩ => ⟨S1000000x64, .f32⟩
  | .hbm, ⟨50, _⟩ => ⟨S1000000x64, .f32⟩
  | .hbm, ⟨51, _⟩ => ⟨S1000000x160, .f32⟩
  | .hbm, ⟨52, _⟩ => ⟨S1000000x64, .f32⟩
  | .hbm, ⟨53, _⟩ => ⟨S1x64, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S1000000, .f32⟩
  | .hbm, ⟨61, _⟩ => ⟨S1000000x1, .f32⟩
  | .hbm, ⟨62, _⟩ => ⟨S_, .f32⟩
  | .hbm, ⟨63, _⟩ => ⟨S1000000x1, .f32⟩
  | .hbm, ⟨64, _⟩ => ⟨S1000000x1, .f32⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S_, .f32⟩
  | .hbm, ⟨69, _⟩ => ⟨S1000000, .f32⟩
  | .hbm, ⟨70, _⟩ => ⟨S1000000x1, .f32⟩
  | .hbm, ⟨71, _⟩ => ⟨S_, .f32⟩
  | .hbm, ⟨72, _⟩ => ⟨S1000000x1, .f32⟩
  | .hbm, ⟨73, _⟩ => ⟨S1000000x1, .f32⟩
  | .hbm, ⟨74, _⟩ => ⟨S1000000x64, .f32⟩
  | .hbm, ⟨75, _⟩ => ⟨S1000000x64, .f32⟩
  | .hbm, ⟨76, _⟩ => ⟨S_, .f32⟩
  | .hbm, ⟨77, _⟩ => ⟨S1000000x1, .f32⟩
  | .hbm, ⟨78, _⟩ => ⟨S1000000x1, .f32⟩
  | .hbm, ⟨79, _⟩ => ⟨S1000000x1, .f32⟩
  | .hbm, ⟨80, _⟩ => ⟨S1000000x64, .f32⟩
  | .hbm, ⟨81, _⟩ => ⟨S1000000x64, .f32⟩
  | .hbm, ⟨82, _⟩ => ⟨S1x64, .f32⟩
  | .hbm, ⟨83, _⟩ => ⟨S1000000x64, .f32⟩
  | .hbm, ⟨84, _⟩ => ⟨S1000000x64, .f32⟩
  | .hbm, ⟨85, _⟩ => ⟨S1x64, .f32⟩
  | .hbm, ⟨86, _⟩ => ⟨S1000000x64, .f32⟩
  | .hbm, ⟨87, _⟩ => ⟨S1000000x64, .f32⟩
  | .hbm, ⟨88, _⟩ => ⟨S1000000x32, .f32⟩
  | .hbm, ⟨89, _⟩ => ⟨S1x32, .f32⟩
  | .hbm, ⟨90, _⟩ => ⟨S1000000x32, .f32⟩
  | .hbm, ⟨91, _⟩ => ⟨S1000000x32, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  concatenates_S1000000x32_S1000000x32_S1000000x32_S1000000x96_d1 : Shape.Concatenates [S1000000x32, S1000000x32, S1000000x32] S1000000x96 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S1000000_d1 : S1000000x64.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  concatenates_S1000000x64_S1000000x96_S1000000x160_d1 : Shape.Concatenates [S1000000x64, S1000000x96] S1000000x160 1
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  dot_S1000000x96_S96x64_S1000000x64_1_0_0_1_n_n_wf : DotDims.WF S1000000x96 S96x64 S1000000x64 [1] [0] [0] [1] [] []
  dot_S1000000x160_S160x64_S1000000x64_1_0_0_1_n_n_wf : DotDims.WF S1000000x160 S160x64 S1000000x64 [1] [0] [0] [1] [] []
  dot_S1000000x64_S64x32_S1000000x32_1_0_0_1_n_n_wf : DotDims.WF S1000000x64 S64x32 S1000000x32 [1] [0] [0] [1] [] []

variable [Facts₀]

def dot_S1000000x96_S96x64_S1000000x64_1_0_0_1_n_n : DotDims S1000000x96 S96x64 S1000000x64 where
  lhsContracting := [1]
  rhsContracting := [0]
  lhsNonContracting := [0]
  rhsNonContracting := [1]
  lhsBatch := []
  rhsBatch := []
  wf := dot_S1000000x96_S96x64_S1000000x64_1_0_0_1_n_n_wf
def dot_S1000000x160_S160x64_S1000000x64_1_0_0_1_n_n : DotDims S1000000x160 S160x64 S1000000x64 where
  lhsContracting := [1]
  rhsContracting := [0]
  lhsNonContracting := [0]
  rhsNonContracting := [1]
  lhsBatch := []
  rhsBatch := []
  wf := dot_S1000000x160_S160x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf

class Facts : Prop extends Facts₀ where

variable [Facts]
-- ==== Proof.LibRowJoin.lean ====
/-
  Rows joined side by side, read at an index.

  Joining arrays of equal row count along the column axis lays their rows end to end: row `p` of the result is row
  `p` of the first array, then row `p` of the second, and so on. This file names the joined row of two or three
  rows (`join2`, `join3`), reads a two- or three-piece concatenation of rank-2 arrays along axis 1 at `(p, q)` as
  that joined row at `q`, and states the one law of sums such a join obeys: a sum over a joined row of products
  with a second factor is the sum over the first row plus the sum over the second, the second factor read at
  the matching positions. All statements are general in the extents.
-/
import Idealize.ShloMosaic.Lib.Pipeline.Value
import Idealize.ShloMosaic.Lib.ValueIdx

noncomputable section

namespace Cert.Lib.RowJoin

open Idealize.ShloMosaic Idealize.ShloMosaic.ValueIdx

variable {α : Type}

/-- Two rows laid end to end: position `q < n1` reads the first row at `q`, position `q ≥ n1` the second at `q - n1`. -/
def join2 {n1 n2 N : ℕ} (hN : N = n1 + n2) (u : Fin n1 → α) (v : Fin n2 → α) : Fin N → α := fun q =>
  if h : q.val < n1 then u ⟨q.val, h⟩ else v ⟨q.val - n1, by have := q.isLt; omega⟩

/-- Three rows laid end to end. -/
def join3 {n1 n2 n3 N : ℕ} (hN : N = n1 + n2 + n3) (u : Fin n1 → α) (v : Fin n2 → α) (w : Fin n3 → α) : Fin N → α := fun q =>
  if h : q.val < n1 then u ⟨q.val, h⟩
  else if h' : q.val < n1 + n2 then v ⟨q.val - n1, by omega⟩
  else w ⟨q.val - (n1 + n2), by have := q.isLt; omega⟩

theorem join2_left {n1 n2 N : ℕ} (hN : N = n1 + n2) (u : Fin n1 → α) (v : Fin n2 → α) (k : Fin n1) :
    join2 hN u v ⟨k.val, by have := k.isLt; omega⟩ = u k := by
  unfold join2
  rw [dif_pos (show k.val < n1 from k.isLt)]

theorem join2_right {n1 n2 N : ℕ} (hN : N = n1 + n2) (u : Fin n1 → α) (v : Fin n2 → α) (k : Fin n2) :
    join2 hN u v ⟨n1 + k.val, by have := k.isLt; omega⟩ = v k := by
  unfold join2
  rw [dif_neg (show ¬ n1 + k.val < n1 by omega)]
  exact congrArg v (Fin.ext (by show n1 + k.val - n1 = k.val; omega))

/-- A sum over the positions of a joined row, each term a product with a second factor, splits into the sum over
    the first row and the sum over the second: only commutativity and associativity of addition are used, so this
    holds in any commutative monoid with a multiplication (the extended reals included, infinities and all). -/
theorem sum_join2_mul {M : Type} [AddCommMonoid M] [Mul M] {n1 n2 N : ℕ} (hN : N = n1 + n2) (u : Fin n1 → M) (v : Fin n2 → M)
    (f : Fin N → M) :
    ∑ q : Fin N, join2 hN u v q * f q
      = (∑ k : Fin n1, u k * f ⟨k.val, by have := k.isLt; omega⟩) + ∑ k : Fin n2, v k * f ⟨n1 + k.val, by have := k.isLt; omega⟩ := by
  subst hN
  rw [Fin.sum_univ_add]
  refine congrArg₂ (· + ·) (Finset.sum_congr rfl fun k _ => ?_) (Finset.sum_congr rfl fun k _ => ?_)
  · exact congrArg (· * _) (join2_left rfl u v k)
  · exact congrArg (· * _) (join2_right rfl u v k)

/-- Two rank-2 arrays of `R` rows joined along axis 1: entry `(p, q)` is the joined row `p` at `q`. -/
theorem concat2_cols_apply {R n1 n2 N : ℕ} (hN : N = n1 + n2) (x1 : (⟨2, ![R, n1]⟩ : Shape).Idx → α) (x2 : (⟨2, ![R, n2]⟩ : Shape).Idx → α)
    (h : Shape.Concatenates [(⟨2, ![R, n1]⟩ : Shape), ⟨2, ![R, n2]⟩] ⟨2, ![R, N]⟩ 1) (p : Fin R) (q : Fin N) :
    concatenate ⟨2, ![R, N]⟩ 1 [⟨⟨2, ![R, n1]⟩, x1⟩, ⟨⟨2, ![R, n2]⟩, x2⟩] h (ix2 p q)
      = join2 hN (fun k => x1 (ix2 p k)) (fun k => x2 (ix2 p k)) q := by
  unfold join2
  by_cases hq : q.val < n1
  · rw [dif_pos hq]
    refine concatenate_pair_apply_left 1 x1 x2 h (ix2 p q) rfl (ix2 p ⟨q.val, hq⟩) fun b => ?_
    match b with
    | ⟨0, _⟩ => rfl
    | ⟨1, _⟩ => rfl
  · rw [dif_neg hq]
    refine concatenate_pair_apply_right 1 x1 x2 h (ix2 p q) rfl rfl (ix2 p ⟨q.val - n1, by have := q.isLt; omega⟩) (fun b hb => ?_) ?_
    · match b with
      | ⟨0, _⟩ => rfl
      | ⟨1, _⟩ => exact absurd rfl hb
    · show q.val - n1 + n1 = q.val
      omega

/-- Three rank-2 arrays of `R` rows joined along axis 1: entry `(p, q)` is the joined row `p` at `q`. -/
theorem concat3_cols_apply {R n1 n2 n3 N : ℕ} (hN : N = n1 + n2 + n3) (x1 : (⟨2, ![R, n1]⟩ : Shape).Idx → α)
    (x2 : (⟨2, ![R, n2]⟩ : Shape).Idx → α) (x3 : (⟨2, ![R, n3]⟩ : Shape).Idx → α)
    (h : Shape.Concatenates [(⟨2, ![R, n1]⟩ : Shape), ⟨2, ![R, n2]⟩, ⟨2, ![R, n3]⟩] ⟨2, ![R, N]⟩ 1) (p : Fin R) (q : Fin N) :
    concatenate ⟨2, ![R, N]⟩ 1 [⟨⟨2, ![R, n1]⟩, x1⟩, ⟨⟨2, ![R, n2]⟩, x2⟩, ⟨⟨2, ![R, n3]⟩, x3⟩] h (ix2 p q)
      = join3 hN (fun k => x1 (ix2 p k)) (fun k => x2 (ix2 p k)) (fun k => x3 (ix2 p k)) q := by
  unfold join3
  by_cases hq : q.val < n1
  · rw [dif_pos hq]
    refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 0 (Nat.zero_lt_succ _) ⟨2, ![R, n1]⟩ x1 rfl rfl 0 rfl (ix2 p ⟨q.val, hq⟩) (fun b hb => ?_) ?_
    · match b with
      | ⟨0, _⟩ => rfl
      | ⟨1, _⟩ => exact absurd rfl hb
    · show 0 + q.val = q.val
      omega
  · rw [dif_neg hq]
    by_cases hq' : q.val < n1 + n2
    · rw [dif_pos hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 1 (Nat.succ_lt_succ (Nat.zero_lt_succ _)) ⟨2, ![R, n2]⟩ x2 rfl rfl n1 (by simp) (ix2 p ⟨q.val - n1, by omega⟩) (fun b hb => ?_) ?_
      · match b with
        | ⟨0, _⟩ => rfl
        | ⟨1, _⟩ => exact absurd rfl hb
      · show n1 + (q.val - n1) = q.val
        omega
    · rw [dif_neg hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 2 (Nat.succ_lt_succ (Nat.succ_lt_succ (Nat.zero_lt_succ _))) ⟨2, ![R, n3]⟩ x3 rfl rfl (n1 + n2) (by simp) (ix2 p ⟨q.val - (n1 + n2), by have := q.isLt; omega⟩) (fun b hb => ?_) ?_
      · match b with
        | ⟨0, _⟩ => rfl
        | ⟨1, _⟩ => exact absurd rfl hb
      · show n1 + n2 + (q.val - (n1 + n2)) = q.val
        omega

end Cert.Lib.RowJoin

end
-- ==== Proof.Spec.lean ====
/-
  The function both programs compute, one row at a time.

  A row of 96 input features `x` (three rows of 32 laid end to end) goes through

    a  = relu (x · W1 + b1)                     (64 features)
    h  = norm a · γ1 + β1
    a' = relu (h · W2[0:64] + x · W2[64:160] + b2)
    h' = norm a' · γ2 + β2
    y  = h' · W3 + b3                           (32 features)

  where `norm v` subtracts the mean of the 64 entries and multiplies by the reciprocal square root of their
  variance plus a small constant, the mean and the variance being the sum divided by 64. Every operation is the
  exact one on the extended reals; the three constants (0, 64 and the small constant) are kept as the float
  words both programs print, so they are never evaluated.
-/
import Idealize.ShloMosaic.PureOps.Ideal
import proofs.«155318_j48636209660177_2_alg».proof.Proof.LibRowJoin

noncomputable section

namespace Cert.Mlp

open Idealize.ShloMosaic Cert.Lib.RowJoin

/-- The float word of zero, the rectifier's threshold. -/
def zero : EReal := Ideal.ofBits .f32 0x00000000#32
/-- The float word of 64, the number of features a mean is taken over. -/
def width : EReal := Ideal.ofBits .f32 0x42800000#32
/-- The float word of the small constant added to a variance. -/
def eps : EReal := Ideal.ofBits .f32 0x3727C5AC#32

/-- The rectifier. -/
def relu (x : EReal) : EReal := max x zero

/-- The mean of 64 entries: their sum divided by 64. -/
def mean (v : Fin 64 → EReal) : EReal := Ideal.div (∑ k, v k) width

/-- Layer normalisation of a row of 64 with scale `γ` and shift `β`. -/
def norm (v γ β : Fin 64 → EReal) (j : Fin 64) : EReal :=
  (v j - mean v) * Ideal.rsqrt (mean (fun k => (v k - mean v) * (v k - mean v)) + eps) * γ j + β j

/-- An affine map of a row: entry `g` is `∑ k, x k · W k g` plus the bias. -/
def affine {K N : ℕ} (x : Fin K → EReal) (W : Fin K → Fin N → EReal) (b : Fin N → EReal) (g : Fin N) : EReal :=
  (∑ k, x k * W k g) + b g

/-- The input row: three rows of 32 laid end to end. -/
def input (s d e : Fin 32 → EReal) : Fin 96 → EReal := join3 (N := 96) rfl s d e

/-- The first hidden row. -/
def hidden1 (x : Fin 96 → EReal) (W1 : Fin 96 → Fin 64 → EReal) (b1 γ1 β1 : Fin 64 → EReal) : Fin 64 → EReal :=
  norm (fun j => relu (affine x W1 b1 j)) γ1 β1

/-- The second affine map, over the first hidden row and the input row: rows 0–63 of `W2` meet the hidden
    row, rows 64–159 the input row. -/
def affine2 (h : Fin 64 → EReal) (x : Fin 96 → EReal) (W2 : Fin 160 → Fin 64 → EReal) (b2 : Fin 64 → EReal) (j : Fin 64) : EReal :=
  ((∑ k : Fin 64, h k * W2 ⟨k.val, by have := k.isLt; omega⟩ j) + ∑ k : Fin 96, x k * W2 ⟨64 + k.val, by have := k.isLt; omega⟩ j) + b2 j

/-- The second hidden row. -/
def hidden2 (h : Fin 64 → EReal) (x : Fin 96 → EReal) (W2 : Fin 160 → Fin 64 → EReal) (b2 γ2 β2 : Fin 64 → EReal) : Fin 64 → EReal :=
  norm (fun j => relu (affine2 h x W2 b2 j)) γ2 β2

/-- The output row of 32 features, as a function of the input row and the parameters. -/
def output (x : Fin 96 → EReal) (W1 : Fin 96 → Fin 64 → EReal) (b1 γ1 β1 : Fin 64 → EReal)
    (W2 : Fin 160 → Fin 64 → EReal) (b2 γ2 β2 : Fin 64 → EReal) (W3 : Fin 64 → Fin 32 → EReal) (b3 : Fin 32 → EReal) : Fin 32 → EReal :=
  affine (hidden2 (hidden1 x W1 b1 γ1 β1) x W2 b2 γ2 β2) W3 b3

/-- One product over the 160 joined features is the split form: a sum over a joined row is the sum over its
    first part plus the sum over its second (commutativity and associativity of addition only, so no
    finiteness is needed). -/
theorem affine_join (h : Fin 64 → EReal) (x : Fin 96 → EReal) (W2 : Fin 160 → Fin 64 → EReal) (b2 : Fin 64 → EReal) (j : Fin 64) :
    affine (join2 (N := 160) rfl h x) W2 b2 j = affine2 h x W2 b2 j := by
  unfold affine affine2
  rw [sum_join2_mul (N := 160) rfl h x (fun q => W2 q j)]

end Cert.Mlp

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.KernelNorm.lean ====
/-
  The kernel body's layer normalisation of a [5000, 64] block, read at an entry.

  The body sums each row over its 64 lanes, keeps the sum as a column, divides by 64, spreads the mean back over
  the row, subtracts, squares, sums again for the variance, adds the small constant, takes the reciprocal square
  root, and finally multiplies by the scale row and adds the shift row. Read at entry (p, j) this is the row
  function `Mlp.norm` of row p of the block: every layout step only moves a value (a column entry is its row's
  sum, a spread row entry is the vector's entry), and every arithmetic step is pointwise.
-/
import proofs.«155318_j48636209660177_2_alg».proof.Proof.Gen.KernelIdeal.Skeleton
import proofs.«155318_j48636209660177_2_alg».proof.Proof.Spec
import proofs.«155318_j48636209660177_2_alg».proof.Proof.LibKeepdims
import Idealize.ShloMosaic.Lib.ValueLayout

noncomputable section

namespace Cert.KernelIdeal.Body

open Cert.KernelIdeal Idealize.ShloMosaic Idealize.ShloMosaic.ValueIdx Cert.Lib.Keepdims

/-- The body's normalisation of a block `x` with scale `γ` and shift `β`, operation by operation as the body
    spells it (the mean is spread twice, once for the variance and once for the result). -/
def normBlock (x : FVec Ideal S5000x64 .f32) (γ β : Vec Ideal S64 .f32) : FVec Ideal S5000x64 .f32 :=
  have sum1 : FVec Ideal S5000 .f32 := multiReduction .add [1] S5000 x 0x00000000#32 Gen.reduces_S5000x64_S5000 (.inl rfl) rfl
  have col1 : FVec Ideal S5000x1 .f32 := shapeCast S5000x1 sum1 Gen.shapeCasts_S5000_S5000x1
  have mean1 : FVec Ideal S5000x1 .f32 := divf col1 (broadcast S5000x1 (Scalar.ofBits .f32 0x42800000#32))
  have cen1 : FVec Ideal S5000x64 .f32 := subf x (broadcastTo S5000x64 mean1 Gen.broadcasts_S5000x1_S5000x64)
  have sq : FVec Ideal S5000x64 .f32 := mulf cen1 cen1
  have sum2 : FVec Ideal S5000 .f32 := multiReduction .add [1] S5000 sq 0x00000000#32 Gen.reduces_S5000x64_S5000 (.inl rfl) rfl
  have col2 : FVec Ideal S5000x1 .f32 := shapeCast S5000x1 sum2 Gen.shapeCasts_S5000_S5000x1
  have var : FVec Ideal S5000x1 .f32 := divf col2 (broadcast S5000x1 (Scalar.ofBits .f32 0x42800000#32))
  have cen2 : FVec Ideal S5000x64 .f32 := subf x (broadcastTo S5000x64 mean1 Gen.broadcasts_S5000x1_S5000x64)
  have inv : FVec Ideal S5000x1 .f32 := rsqrt (addf var (broadcast S5000x1 (Scalar.ofBits .f32 0x3727C5AC#32)))
  have scaled : FVec Ideal S5000x64 .f32 := mulf cen2 (broadcastTo S5000x64 inv Gen.broadcasts_S5000x1_S5000x64)
  have g : FVec Ideal S5000x64 .f32 := broadcastTo S5000x64 (shapeCast S1x64 γ Gen.shapeCasts_S64_S1x64) Gen.broadcasts_S1x64_S5000x64
  have b : FVec Ideal S5000x64 .f32 := broadcastTo S5000x64 (shapeCast S1x64 β Gen.shapeCasts_S64_S1x64) Gen.broadcasts_S1x64_S5000x64
  addf (mulf scaled g) b

theorem rsqrt_apply {s : Shape} {φ : FTy} (a : FVec Ideal s φ) (i : s.Idx) : rsqrt a i = Ideal.rsqrt (a i) := rfl

/-- A vector of 64 spread over the 5000 rows of a block reads, at (p, j), the vector at j. -/
theorem rowSpread_apply (v : Vec Ideal S64 .f32) (p : Fin 5000) (j : Fin 64) :
    broadcastTo S5000x64 (shapeCast S1x64 v Gen.shapeCasts_S64_S1x64) Gen.broadcasts_S1x64_S5000x64 (ix2 p j) = v (ix1 j) :=
  (broadcastTo_1b_ab_apply (a := 5000) (b := 64) _ Gen.broadcasts_S1x64_S5000x64 p j).trans
    (shapeCast_a_1a_apply (a := 64) v Gen.shapeCasts_S64_S1x64 0 j)

/-- A per-row column (a vector of 5000 kept as [5000, 1], then any pointwise function of it) spread over the 64
    lanes reads, at (p, j), the column's entry of row p. -/
theorem colSpread_apply (c : FVec Ideal S5000x1 .f32) (p : Fin 5000) (j : Fin 64) :
    broadcastTo S5000x64 c Gen.broadcasts_S5000x1_S5000x64 (ix2 p j) = c (ix2 p (0 : Fin 1)) :=
  broadcastTo_a1_ab_apply (a := 5000) (b := 64) c Gen.broadcasts_S5000x1_S5000x64 p j

/-- The sum over the lanes kept as a column reads, at (p, 0), the sum of row p. -/
theorem rowSumCol_apply (x : FVec Ideal S5000x64 .f32) (p : Fin 5000) :
    shapeCast S5000x1 (multiReduction .add [1] S5000 x 0x00000000#32 Gen.reduces_S5000x64_S5000 (.inl rfl) rfl) Gen.shapeCasts_S5000_S5000x1
        (ix2 p (0 : Fin 1)) = ∑ k : Fin 64, x (ix2 p k) :=
  (shapeCast_a_a1_apply (a := 5000) _ Gen.shapeCasts_S5000_S5000x1 p 0).trans
    (laneSum_apply (a := 5000) (b := 64) x 0x00000000#32 Gen.reduces_S5000x64_S5000 (.inl rfl) rfl p)

/-- The body's normalisation at entry (p, j) is the row normalisation of row p, at j. -/
theorem normBlock_apply (x : FVec Ideal S5000x64 .f32) (γ β : Vec Ideal S64 .f32) (p : Fin 5000) (j : Fin 64) :
    normBlock x γ β (ix2 p j)
      = Mlp.norm (fun k => x (ix2 p k)) (fun k => γ (ix1 k)) (fun k => β (ix1 k)) j := by
  unfold normBlock
  simp only [addf_apply, mulf_apply, subf_apply, divf_apply, rsqrt_apply, broadcast_apply, colSpread_apply]
  rw [rowSpread_apply γ p j, rowSpread_apply β p j, rowSumCol_apply x p, rowSumCol_apply _ p]
  simp only [mulf_apply, subf_apply, divf_apply, broadcast_apply, colSpread_apply]
  rw [rowSumCol_apply x p]
  rfl

end Cert.KernelIdeal.Body

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.KernelBody.lean ====
/-
  The kernel body's result for one block of 5000 rows, read at an entry.

  The body joins the three input blocks into rows of 96, multiplies by the first weight matrix, adds the bias,
  rectifies and normalises; multiplies the normalised block by rows 0–63 of the second weight matrix and the joined
  block by rows 64–159, adds the two products and the bias, rectifies and normalises again; and multiplies by the
  third weight matrix and adds the last bias. Read at entry (p, c) of the block this is the row function
  `Mlp.output` of row p of the three input blocks, at c: a product into the zero accumulator is the finite sum
  over the contracted axis, a bias spread over the rows reads the bias vector, and the changes of float format are
  the identity on the extended reals.
-/
import proofs.«155318_j48636209660177_2_alg».proof.Proof.KernelNorm
import proofs.«155318_j48636209660177_2_alg».proof.Proof.LibPlainDot
import proofs.«155318_j48636209660177_2_alg».proof.Proof.LibRowJoin
import Idealize.ShloMosaic.Lib.ValueLayout

noncomputable section

namespace Cert.KernelIdeal.Body

open Cert.KernelIdeal Idealize.ShloMosaic Idealize.ShloMosaic.ValueIdx Cert.Lib.RowJoin

/-- A vector of `b` entries viewed as one row and spread over `a` rows reads, at (p, j), the vector at j. -/
theorem rowSpread {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix1 j) :=
  (broadcastTo_1b_ab_apply _ h2 p j).trans (shapeCast_a_1a_apply v h1 0 j)

/-- The joined block: row p is the three input rows laid end to end. -/
theorem pay2_apply (s d e : Vec Ideal S5000x32 .f32) (p : Fin 5000) (q : Fin 96) :
    Gen.k0_pay2 s d e (ix2 p q)
      = Mlp.input (fun k => s (ix2 p k)) (fun k => d (ix2 p k)) (fun k => e (ix2 p k)) q :=
  concat3_cols_apply (α := EReal) (R := 5000) (n1 := 32) (n2 := 32) (n3 := 32) (N := 96) rfl s d e
    Gen.concatenates_S5000x32_S5000x32_S5000x32_S5000x96_d1 p q

/-- The first layer before normalisation: product with the first weight matrix, bias, rectifier. -/
def pre1 (x : FVec Ideal S5000x96 .bf16) (w1 : Vec Ideal S96x64 .bf16) (b1 : Vec Ideal S64 .f32) : FVec Ideal S5000x64 .f32 :=
  maximumf
    (addf (matmul dot_S5000x96_S96x64_S5000x64_1_0_0_1_n_n none x (shapeCast S96x64 w1 Gen.shapeCasts_S96x64_S96x64 : FVec Ideal S96x64 .bf16)
        (constant S5000x64 .f32 0x00000000#32))
      (broadcastTo S5000x64 (shapeCast S1x64 b1 Gen.shapeCasts_S64_S1x64) Gen.broadcasts_S1x64_S5000x64))
    (broadcast S5000x64 (Scalar.ofBits .f32 0x00000000#32))

theorem pay3_eq (s d e : Vec Ideal S5000x32 .f32) (w1 : Vec Ideal S96x64 .bf16) (b1 γ1 β1 : Vec Ideal S64 .f32) :
    Gen.k0_pay3 s d e w1 b1 γ1 β1
      = truncf .bf16 (normBlock (pre1 (Gen.k0_pay2 s d e) w1 b1) γ1 β1) Gen.bitsLt_bf16_f32 := rfl

theorem pre1_apply (x : FVec Ideal S5000x96 .bf16) (w1 : Vec Ideal S96x64 .bf16) (b1 : Vec Ideal S64 .f32) (p : Fin 5000) (j : Fin 64) :
    pre1 x w1 b1 (ix2 p j)
      = Mlp.relu (Mlp.affine (fun k => x (ix2 p k)) (fun k g => w1 (ix2 k g)) (fun g => b1 (ix1 g)) j) := by
  unfold pre1
  rw [maximumf_apply, addf_apply, broadcast_apply, shapeCast_self,
    Cert.PlainDot.matmul_zero_apply (M := 5000) (K := 96) (N := 64) dot_S5000x96_S96x64_S5000x64_1_0_0_1_n_n rfl x w1 p j,
    rowSpread (a := 5000) (b := 64) b1 Gen.shapeCasts_S64_S1x64 Gen.broadcasts_S1x64_S5000x64 p j]
  rfl

/-- The first hidden block at (p, j) is the first hidden row of row p, at j. -/
theorem pay3_apply (s d e : Vec Ideal S5000x32 .f32) (w1 : Vec Ideal S96x64 .bf16) (b1 γ1 β1 : Vec Ideal S64 .f32) (p : Fin 5000) (j : Fin 64) :
    Gen.k0_pay3 s d e w1 b1 γ1 β1 (ix2 p j)
      = Mlp.hidden1 (Mlp.input (fun k => s (ix2 p k)) (fun k => d (ix2 p k)) (fun k => e (ix2 p k)))
          (fun k g => w1 (ix2 k g)) (fun g => b1 (ix1 g)) (fun g => γ1 (ix1 g)) (fun g => β1 (ix1 g)) j := by
  rw [pay3_eq]
  show normBlock (pre1 (Gen.k0_pay2 s d e) w1 b1) γ1 β1 (ix2 p j) = _
  rw [normBlock_apply]
  unfold Mlp.hidden1
  refine congrArg (fun v => Mlp.norm v _ _ j) (funext fun q => ?_)
  rw [pre1_apply]
  refine congrArg (fun v => Mlp.relu (Mlp.affine v _ _ q)) (funext fun k => ?_)
  exact pay2_apply s d e p k

/-- The second layer before normalisation: the hidden block times rows 0–63 of the second weight matrix plus
    the joined block times rows 64–159, bias, rectifier. -/
def pre2 (x : FVec Ideal S5000x96 .bf16) (h : FVec Ideal S5000x64 .bf16) (w2a : Vec Ideal S64x64 .bf16) (w2b : Vec Ideal S96x64 .bf16)
    (b2 : Vec Ideal S64 .f32) : FVec Ideal S5000x64 .f32 :=
  maximumf
    (addf
      (addf
        (matmul dot_S5000x64_S64x64_S5000x64_1_0_0_1_n_n none h (shapeCast S64x64 w2a Gen.shapeCasts_S64x64_S64x64 : FVec Ideal S64x64 .bf16)
          (constant S5000x64 .f32 0x00000000#32))
        (matmul dot_S5000x96_S96x64_S5000x64_1_0_0_1_n_n none x (shapeCast S96x64 w2b Gen.shapeCasts_S96x64_S96x64 : FVec Ideal S96x64 .bf16)
          (constant S5000x64 .f32 0x00000000#32)))
      (broadcastTo S5000x64 (shapeCast S1x64 b2 Gen.shapeCasts_S64_S1x64) Gen.broadcasts_S1x64_S5000x64))
    (broadcast S5000x64 (Scalar.ofBits .f32 0x00000000#32))

theorem pay4_eq (x : FVec Ideal S5000x96 .bf16) (h : FVec Ideal S5000x64 .bf16) (w2a : Vec Ideal S64x64 .bf16) (w2b : Vec Ideal S96x64 .bf16)
    (b2 γ2 β2 : Vec Ideal S64 .f32) :
    Gen.k0_pay4 x h w2a w2b b2 γ2 β2 = truncf .bf16 (normBlock (pre2 x h w2a w2b b2) γ2 β2) Gen.bitsLt_bf16_f32 := rfl

theorem pre2_apply (x : FVec Ideal S5000x96 .bf16) (h : FVec Ideal S5000x64 .bf16) (w2a : Vec Ideal S64x64 .bf16) (w2b : Vec Ideal S96x64 .bf16)
    (b2 : Vec Ideal S64 .f32) (W2 : Fin 160 → Fin 64 → EReal)
    (ha : ∀ (k : Fin 64) (j : Fin 64), w2a (ix2 k j) = W2 ⟨k.val, by have := k.isLt; omega⟩ j)
    (hb : ∀ (k : Fin 96) (j : Fin 64), w2b (ix2 k j) = W2 ⟨64 + k.val, by have := k.isLt; omega⟩ j) (p : Fin 5000) (j : Fin 64) :
    pre2 x h w2a w2b b2 (ix2 p j)
      = Mlp.relu (Mlp.affine2 (fun k => h (ix2 p k)) (fun k => x (ix2 p k)) W2 (fun g => b2 (ix1 g)) j) := by
  unfold pre2
  rw [maximumf_apply, addf_apply, addf_apply, broadcast_apply, shapeCast_self, shapeCast_self,
    Cert.PlainDot.matmul_zero_apply (M := 5000) (K := 64) (N := 64) dot_S5000x64_S64x64_S5000x64_1_0_0_1_n_n rfl h w2a p j,
    Cert.PlainDot.matmul_zero_apply (M := 5000) (K := 96) (N := 64) dot_S5000x96_S96x64_S5000x64_1_0_0_1_n_n rfl x w2b p j,
    rowSpread (a := 5000) (b := 64) b2 Gen.shapeCasts_S64_S1x64 Gen.broadcasts_S1x64_S5000x64 p j]
  simp only [ha, hb]
  rfl

/-- The second hidden block at (p, j) is the second hidden row, at j, of row p of the hidden and joined blocks. -/
theorem pay4_apply (x : FVec Ideal S5000x96 .bf16) (h : FVec Ideal S5000x64 .bf16) (w2a : Vec Ideal S64x64 .bf16) (w2b : Vec Ideal S96x64 .bf16)
    (b2 γ2 β2 : Vec Ideal S64 .f32) (W2 : Fin 160 → Fin 64 → EReal)
    (ha : ∀ (k : Fin 64) (j : Fin 64), w2a (ix2 k j) = W2 ⟨k.val, by have := k.isLt; omega⟩ j)
    (hb : ∀ (k : Fin 96) (j : Fin 64), w2b (ix2 k j) = W2 ⟨64 + k.val, by have := k.isLt; omega⟩ j) (p : Fin 5000) (j : Fin 64) :
    Gen.k0_pay4 x h w2a w2b b2 γ2 β2 (ix2 p j)
      = Mlp.hidden2 (fun k => h (ix2 p k)) (fun k => x (ix2 p k)) W2 (fun g => b2 (ix1 g)) (fun g => γ2 (ix1 g)) (fun g => β2 (ix1 g)) j := by
  rw [pay4_eq]
  show normBlock (pre2 x h w2a w2b b2) γ2 β2 (ix2 p j) = _
  rw [normBlock_apply]
  unfold Mlp.hidden2
  refine congrArg (fun v => Mlp.norm v _ _ j) (funext fun q => ?_)
  exact pre2_apply x h w2a w2b b2 W2 ha hb p q

/-- The last layer: product with the third weight matrix and bias. -/
theorem pay1_apply (h : FVec Ideal S5000x64 .bf16) (w3 : Vec Ideal S64x32 .bf16) (b3 : Vec Ideal S32 .f32) (p : Fin 5000) (c : Fin 32) :
    Gen.k0_pay1 h (Gen.k0_pay5 w3) (constant S5000x32 .f32 0x00000000#32) b3 (ix2 p c)
      = Mlp.affine (fun k => h (ix2 p k)) (fun k g => w3 (ix2 k g)) (fun g => b3 (ix1 g)) c := by
  unfold Gen.k0_pay1 Gen.k0_pay5
  rw [addf_apply, shapeCast_self,
    Cert.PlainDot.matmul_zero_apply (M := 5000) (K := 64) (N := 32) dot_S5000x64_S64x32_S5000x32_1_0_0_1_n_n rfl h w3 p c,
    rowSpread (a := 5000) (b := 32) b3 Gen.shapeCasts_S32_S1x32 Gen.broadcasts_S1x32_S5000x32 p c]
  rfl

/-- THE BLOCK'S RESULT at (p, c): the output row of row p of the three input blocks, at c. The two pieces of the
    second weight matrix the body loads are rows 0–63 and rows 64–159 of one matrix `W2` (`ha`, `hb`). -/
theorem payload_apply (s d e : Vec Ideal S5000x32 .f32) (w1 : Vec Ideal S96x64 .bf16) (b1 γ1 β1 : Vec Ideal S64 .f32)
    (w2a : Vec Ideal S64x64 .bf16) (w2b : Vec Ideal S96x64 .bf16) (b2 γ2 β2 : Vec Ideal S64 .f32)
    (w3 : Vec Ideal S64x32 .bf16) (b3 : Vec Ideal S32 .f32) (W2 : Fin 160 → Fin 64 → EReal)
    (ha : ∀ (k : Fin 64) (j : Fin 64), w2a (ix2 k j) = W2 ⟨k.val, by have := k.isLt; omega⟩ j)
    (hb : ∀ (k : Fin 96) (j : Fin 64), w2b (ix2 k j) = W2 ⟨64 + k.val, by have := k.isLt; omega⟩ j) (p : Fin 5000) (c : Fin 32) :
    Gen.k0_pay1 (Gen.k0_pay4 (Gen.k0_pay2 s d e) (Gen.k0_pay3 s d e w1 b1 γ1 β1) w2a w2b b2 γ2 β2) (Gen.k0_pay5 w3)
        (constant S5000x32 .f32 0x00000000#32) b3 (ix2 p c)
      = Mlp.output (Mlp.input (fun k => s (ix2 p k)) (fun k => d (ix2 p k)) (fun k => e (ix2 p k)))
          (fun k g => w1 (ix2 k g)) (fun g => b1 (ix1 g)) (fun g => γ1 (ix1 g)) (fun g => β1 (ix1 g))
          W2 (fun g => b2 (ix1 g)) (fun g => γ2 (ix1 g)) (fun g => β2 (ix1 g))
          (fun k g => w3 (ix2 k g)) (fun g => b3 (ix1 g)) c := by
  rw [pay1_apply]
  unfold Mlp.output
  refine congrArg (fun v => Mlp.affine v _ _ c) (funext fun k => ?_)
  rw [pay4_apply _ _ w2a w2b b2 γ2 β2 W2 ha hb p k]
  refine congrArg₂ (fun u v => Mlp.hidden2 u v W2 _ _ _ k) (funext fun q => ?_) (funext fun q => ?_)
  · exact pay3_apply s d e w1 b1 γ1 β1 p q
  · exact pay2_apply s d e p q

end Cert.KernelIdeal.Body

end
-- ==== Proof.Result.lean ====
/-
  The result as one array: entry (r, c) of the [1000000, 32] result is the output row of row r of the three input
  arrays, at column c. Both programs are shown to end with this array.
-/
import proofs.«155318_j48636209660177_2_alg».proof.Proof.Spec
import Idealize.ShloMosaic.Lib.ValueIdx

noncomputable section

namespace Cert.Mlp

open Idealize.ShloMosaic Idealize.ShloMosaic.ValueIdx

/-- THE RESULT ARRAY as a function of the thirteen argument arrays that are read. -/
def result (a0 a1 a2 : (⟨2, ![1000000, 32]⟩ : Shape).Idx → EReal) (W1 : (⟨2, ![96, 64]⟩ : Shape).Idx → EReal)
    (b1 γ1 β1 : (⟨1, ![64]⟩ : Shape).Idx → EReal) (W2 : (⟨2, ![160, 64]⟩ : Shape).Idx → EReal)
    (b2 γ2 β2 : (⟨1, ![64]⟩ : Shape).Idx → EReal) (W3 : (⟨2, ![64, 32]⟩ : Shape).Idx → EReal)
    (b3 : (⟨1, ![32]⟩ : Shape).Idx → EReal) : (⟨2, ![1000000, 32]⟩ : Shape).Idx → EReal := fun i =>
  output
    (input (fun k => a0 (ix2 (⟨(i 0).val, idx2_lt0 i⟩ : Fin 1000000) k)) (fun k => a1 (ix2 (⟨(i 0).val, idx2_lt0 i⟩ : Fin 1000000) k))
      (fun k => a2 (ix2 (⟨(i 0).val, idx2_lt0 i⟩ : Fin 1000000) k)))
    (fun k g => W1 (ix2 k g)) (fun g => b1 (ix1 g)) (fun g => γ1 (ix1 g)) (fun g => β1 (ix1 g))
    (fun k g => W2 (ix2 k g)) (fun g => b2 (ix1 g)) (fun g => γ2 (ix1 g)) (fun g => β2 (ix1 g))
    (fun k g => W3 (ix2 k g)) (fun g => b3 (ix1 g)) (⟨(i 1).val, idx2_lt1 i⟩ : Fin 32)

/-- At an index given by its coordinates. -/
theorem result_ix2 (a0 a1 a2 : (⟨2, ![1000000, 32]⟩ : Shape).Idx → EReal) (W1 : (⟨2, ![96, 64]⟩ : Shape).Idx → EReal)
    (b1 γ1 β1 : (⟨1, ![64]⟩ : Shape).Idx → EReal) (W2 : (⟨2, ![160, 64]⟩ : Shape).Idx → EReal)
    (b2 γ2 β2 : (⟨1, ![64]⟩ : Shape).Idx → EReal) (W3 : (⟨2, ![64, 32]⟩ : Shape).Idx → EReal)
    (b3 : (⟨1, ![32]⟩ : Shape).Idx → EReal) (r : Fin 1000000) (c : Fin 32) :
    result a0 a1 a2 W1 b1 γ1 β1 W2 b2 γ2 β2 W3 b3 (ix2 r c)
      = output (input (fun k => a0 (ix2 r k)) (fun k => a1 (ix2 r k)) (fun k => a2 (ix2 r k)))
          (fun k g => W1 (ix2 k g)) (fun g => b1 (ix1 g)) (fun g => γ1 (ix1 g)) (fun g => β1 (ix1 g))
          (fun k g => W2 (ix2 k g)) (fun g => b2 (ix1 g)) (fun g => γ2 (ix1 g)) (fun g => β2 (ix1 g))
          (fun k g => W3 (ix2 k g)) (fun g => b3 (ix1 g)) c := rfl

end Cert.Mlp

end
-- ==== Proof.KernelWhole.lean ====
/-
  From blocks to the whole array.

  Grid point t stages rows 5000 t … 5000 t + 4999 of the three input arrays and the whole of every parameter array,
  and writes back rows 5000 t … 5000 t + 4999 of the result. Since the body's result at (p, c) is the output row of
  row p of the staged input blocks, what point t writes back is block t of the one array `Mlp.result` of the
  arguments; the 200 blocks tile the million rows, so after the run the result array is `Mlp.result`. The
  three weight matrices reach the kernel through a change of float format on the host, which is the identity on
  the extended reals.
-/
import proofs.«155318_j48636209660177_2_alg».proof.Proof.Gen.KernelIdeal.Value
import proofs.«155318_j48636209660177_2_alg».proof.Proof.KernelBody
import proofs.«155318_j48636209660177_2_alg».proof.Proof.Result
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The grid has 200 points. -/
theorem point_lt (t : Fin cfg0.N) : t.val < 200 := Nat.lt_of_lt_of_eq t.isLt (N_0 : cfg0.N = 200)

/-- The printed index maps, decided over the 200 grid points: the three input windows and the output window are
    at block t along the rows, and every parameter window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_3.index t (0 : Fin 2) = 0 ∧ win0_3.index t (1 : Fin 2) = 0
    ∧ win0_7.index t (0 : Fin 2) = 0 ∧ win0_7.index t (1 : Fin 2) = 0
    ∧ win0_11.index t (0 : Fin 2) = 0 ∧ win0_11.index t (1 : Fin 2) = 0
    ∧ win0_4.index t (0 : Fin 1) = 0 ∧ win0_5.index t (0 : Fin 1) = 0 ∧ win0_6.index t (0 : Fin 1) = 0
    ∧ win0_8.index t (0 : Fin 1) = 0 ∧ win0_9.index t (0 : Fin 1) = 0 ∧ win0_10.index t (0 : Fin 1) = 0
    ∧ win0_12.index t (0 : Fin 1) = 0 :=
  (by decide +kernel : ∀ t : Fin grid0.N, _)

/-- The row of the arrays that row p of point t's blocks is. -/
def row (t : Fin cfg0.N) (p : Fin 5000) : Fin 1000000 :=
  ⟨t.val * 5000 + p.val, by have := point_lt t; have := p.isLt; omega⟩

/-- Row p of window 0's block at point t is row `row t p` of its array. -/
theorem blk0 (c : Dev nD) (t : Fin cfg0.N) (p : Fin 5000) (k : Fin 32) :
    iblk m c 0 t (ix2 p k) = V m c main_arg0 (ix2 (row t p) k) := by
  show V m c main_arg0 (((cfg0.win 0).blk t).view.emb (ix2 p k)) = _
  refine congrArg (V m c main_arg0) (funext fun a => Fin.ext ?_)
  have e := idx_facts t
  match a with
  | ⟨0, _⟩ => show win0_0.index t (0 : Fin 2) * 5000 + 1 * p.val = t.val * 5000 + p.val; omega
  | ⟨1, _⟩ => show win0_0.index t (1 : Fin 2) * 32 + 1 * k.val = k.val; omega

/-- Row p of window 1's block at point t is row `row t p` of its array. -/
theorem blk1 (c : Dev nD) (t : Fin cfg0.N) (p : Fin 5000) (k : Fin 32) :
    iblk m c 1 t (ix2 p k) = V m c main_arg1 (ix2 (row t p) k) := by
  show V m c main_arg1 (((cfg0.win 1).blk t).view.emb (ix2 p k)) = _
  refine congrArg (V m c main_arg1) (funext fun a => Fin.ext ?_)
  have e := idx_facts t
  match a with
  | ⟨0, _⟩ => show win0_1.index t (0 : Fin 2) * 5000 + 1 * p.val = t.val * 5000 + p.val; omega
  | ⟨1, _⟩ => show win0_1.index t (1 : Fin 2) * 32 + 1 * k.val = k.val; omega

/-- Row p of window 2's block at point t is row `row t p` of its array. -/
theorem blk2 (c : Dev nD) (t : Fin cfg0.N) (p : Fin 5000) (k : Fin 32) :
    iblk m c 2 t (ix2 p k) = V m c main_arg2 (ix2 (row t p) k) := by
  show V m c main_arg2 (((cfg0.win 2).blk t).view.emb (ix2 p k)) = _
  refine congrArg (V m c main_arg2) (funext fun a => Fin.ext ?_)
  have e := idx_facts t
  match a with
  | ⟨0, _⟩ => show win0_2.index t (0 : Fin 2) * 5000 + 1 * p.val = t.val * 5000 + p.val; omega
  | ⟨1, _⟩ => show win0_2.index t (1 : Fin 2) * 32 + 1 * k.val = k.val; omega

/-- Window 3's block at every point is its whole array. -/
theorem blk3 (c : Dev nD) (t : Fin cfg0.N) (k : Fin 96) (g : Fin 64) :
    iblk m c 3 t (ix2 k g) = V m c main_v0 (ix2 k g) := by
  show V m c main_v0 (((cfg0.win 3).blk t).view.emb (ix2 k g)) = _
  refine congrArg (V m c main_v0) (funext fun a => Fin.ext ?_)
  have e := idx_facts t
  match a with
  | ⟨0, _⟩ => show win0_3.index t (0 : Fin 2) * 96 + 1 * k.val = k.val; omega
  | ⟨1, _⟩ => show win0_3.index t (1 : Fin 2) * 64 + 1 * g.val = g.val; omega

/-- Window 4's block at every point is its whole vector. -/
theorem blk4 (c : Dev nD) (t : Fin cfg0.N) (g : Fin 64) :
    iblk m c 4 t (ix1 g) = V m c main_arg4 (ix1 g) := by
  show V m c main_arg4 (((cfg0.win 4).blk t).view.emb (ix1 g)) = _
  refine congrArg (V m c main_arg4) (funext fun a => Fin.ext ?_)
  have e := idx_facts t
  match a with
  | ⟨0, _⟩ => show win0_4.index t (0 : Fin 1) * 64 + 1 * g.val = g.val; omega

/-- Window 5's block at every point is its whole vector. -/
theorem blk5 (c : Dev nD) (t : Fin cfg0.N) (g : Fin 64) :
    iblk m c 5 t (ix1 g) = V m c main_arg5 (ix1 g) := by
  show V m c main_arg5 (((cfg0.win 5).blk t).view.emb (ix1 g)) = _
  refine congrArg (V m c main_arg5) (funext fun a => Fin.ext ?_)
  have e := idx_facts t
  match a with
  | ⟨0, _⟩ => show win0_5.index t (0 : Fin 1) * 64 + 1 * g.val = g.val; omega

/-- Window 6's block at every point is its whole vector. -/
theorem blk6 (c : Dev nD) (t : Fin cfg0.N) (g : Fin 64) :
    iblk m c 6 t (ix1 g) = V m c main_arg6 (ix1 g) := by
  show V m c main_arg6 (((cfg0.win 6).blk t).view.emb (ix1 g)) = _
  refine congrArg (V m c main_arg6) (funext fun a => Fin.ext ?_)
  have e := idx_facts t
  match a with
  | ⟨0, _⟩ => show win0_6.index t (0 : Fin 1) * 64 + 1 * g.val = g.val; omega

/-- Window 7's block at every point is its whole array. -/
theorem blk7 (c : Dev nD) (t : Fin cfg0.N) (k : Fin 160) (g : Fin 64) :
    iblk m c 7 t (ix2 k g) = V m c main_v1 (ix2 k g) := by
  show V m c main_v1 (((cfg0.win 7).blk t).view.emb (ix2 k g)) = _
  refine congrArg (V m c main_v1) (funext fun a => Fin.ext ?_)
  have e := idx_facts t
  match a with
  | ⟨0, _⟩ => show win0_7.index t (0 : Fin 2) * 160 + 1 * k.val = k.val; omega
  | ⟨1, _⟩ => show win0_7.index t (1 : Fin 2) * 64 + 1 * g.val = g.val; omega

/-- Window 8's block at every point is its whole vector. -/
theorem blk8 (c : Dev nD) (t : Fin cfg0.N) (g : Fin 64) :
    iblk m c 8 t (ix1 g) = V m c main_arg8 (ix1 g) := by
  show V m c main_arg8 (((cfg0.win 8).blk t).view.emb (ix1 g)) = _
  refine congrArg (V m c main_arg8) (funext fun a => Fin.ext ?_)
  have e := idx_facts t
  match a with
  | ⟨0, _⟩ => show win0_8.index t (0 : Fin 1) * 64 + 1 * g.val = g.val; omega

/-- Window 9's block at every point is its whole vector. -/
theorem blk9 (c : Dev nD) (t : Fin cfg0.N) (g : Fin 64) :
    iblk m c 9 t (ix1 g) = V m c main_arg9 (ix1 g) := by
  show V m c main_arg9 (((cfg0.win 9).blk t).view.emb (ix1 g)) = _
  refine congrArg (V m c main_arg9) (funext fun a => Fin.ext ?_)
  have e := idx_facts t
  match a with
  | ⟨0, _⟩ => show win0_9.index t (0 : Fin 1) * 64 + 1 * g.val = g.val; omega

/-- Window 10's block at every point is its whole vector. -/
theorem blk10 (c : Dev nD) (t : Fin cfg0.N) (g : Fin 64) :
    iblk m c 10 t (ix1 g) = V m c main_arg10 (ix1 g) := by
  show V m c main_arg10 (((cfg0.win 10).blk t).view.emb (ix1 g)) = _
  refine congrArg (V m c main_arg10) (funext fun a => Fin.ext ?_)
  have e := idx_facts t
  match a with
  | ⟨0, _⟩ => show win0_10.index t (0 : Fin 1) * 64 + 1 * g.val = g.val; omega

/-- Window 11's block at every point is its whole array. -/
theorem blk11 (c : Dev nD) (t : Fin cfg0.N) (k : Fin 64) (g : Fin 32) :
    iblk m c 11 t (ix2 k g) = V m c main_v2 (ix2 k g) := by
  show V m c main_v2 (((cfg0.win 11).blk t).view.emb (ix2 k g)) = _
  refine congrArg (V m c main_v2) (funext fun a => Fin.ext ?_)
  have e := idx_facts t
  match a with
  | ⟨0, _⟩ => show win0_11.index t (0 : Fin 2) * 64 + 1 * k.val = k.val; omega
  | ⟨1, _⟩ => show win0_11.index t (1 : Fin 2) * 32 + 1 * g.val = g.val; omega

/-- Window 12's block at every point is its whole vector. -/
theorem blk12 (c : Dev nD) (t : Fin cfg0.N) (g : Fin 32) :
    iblk m c 12 t (ix1 g) = V m c main_arg12 (ix1 g) := by
  show V m c main_arg12 (((cfg0.win 12).blk t).view.emb (ix1 g)) = _
  refine congrArg (V m c main_arg12) (funext fun a => Fin.ext ?_)
  have e := idx_facts t
  match a with
  | ⟨0, _⟩ => show win0_12.index t (0 : Fin 1) * 32 + 1 * g.val = g.val; omega

/-- The body's first load of the second weight matrix reads its rows 0–63. -/
theorem w2_top (c : Dev nD) (t : Fin cfg0.N) (k : Fin 64) (j : Fin 64) :
    View.ld (iblk m c 7 t) r0_3 (ix2 k j) = V m c main_v1 (ix2 (⟨k.val, by have := k.isLt; omega⟩ : Fin 160) j) := by
  show iblk m c 7 t (r0_3.idx (ix2 k j)) = _
  have e : r0_3.idx (ix2 k j) = (ix2 (⟨k.val, by have := k.isLt; omega⟩ : Fin 160) j : S160x64.Idx) :=
    funext fun a => Fin.ext (by
      match a with
      | ⟨0, _⟩ => show 0 + 1 * k.val = k.val; omega
      | ⟨1, _⟩ => show 0 + 1 * j.val = j.val; omega)
  rw [e, blk7]

/-- The body's second load of the second weight matrix reads its rows 64–159. -/
theorem w2_bot (c : Dev nD) (t : Fin cfg0.N) (k : Fin 96) (j : Fin 64) :
    View.ld (iblk m c 7 t) r0_4 (ix2 k j) = V m c main_v1 (ix2 (⟨64 + k.val, by have := k.isLt; omega⟩ : Fin 160) j) := by
  show iblk m c 7 t (r0_4.idx (ix2 k j)) = _
  have e : r0_4.idx (ix2 k j) = (ix2 (⟨64 + k.val, by have := k.isLt; omega⟩ : Fin 160) j : S160x64.Idx) :=
    funext fun a => Fin.ext (by
      match a with
      | ⟨0, _⟩ => show 64 + 1 * k.val = 64 + k.val; omega
      | ⟨1, _⟩ => show 0 + 1 * j.val = j.val; omega)
  rw [e, blk7]

/-- What the body leaves for point t, at (p, q): entry (row t p, q) of the one array `Mlp.result` of the arrays as
    the region finds them. -/
theorem block_at (c : Dev nD) (t : Fin cfg0.N) (p : Fin 5000) (q : Fin 32) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q)
      = Mlp.result (V m c main_arg0) (V m c main_arg1) (V m c main_arg2) (V m c main_v0) (V m c main_arg4) (V m c main_arg5) (V m c main_arg6) (V m c main_v1) (V m c main_arg8) (V m c main_arg9) (V m c main_arg10) (V m c main_v2) (V m c main_arg12) (ix2 (row t p) q) := by
  unfold out0_13
  rw [View.canon_unit_zero hz2]
  simp only [View.ld_unit_zero (S := S5000x32) hz2, View.ld_unit_zero (S := S96x64) hz2, View.ld_unit_zero (S := S64) hz1,
    View.ld_unit_zero (S := S64x32) hz2, View.ld_unit_zero (S := S32) hz1]
  refine (Body.payload_apply (iblk m c 0 t) (iblk m c 1 t) (iblk m c 2 t) (iblk m c 3 t) (iblk m c 4 t) (iblk m c 5 t) (iblk m c 6 t)
    (View.ld (iblk m c 7 t) r0_3) (View.ld (iblk m c 7 t) r0_4) (iblk m c 8 t) (iblk m c 9 t) (iblk m c 10 t) (iblk m c 11 t)
    (iblk m c 12 t) (fun k g => V m c main_v1 (ix2 k g)) (w2_top m c t) (w2_bot m c t) p q).trans ?_
  rw [Mlp.result_ix2]
  simp only [blk0, blk1, blk2, blk3, blk4, blk5, blk6, blk8, blk9, blk10, blk11, blk12]

/-- Where row p, column q of point t's output block lies in the result array. -/
theorem emb_out (t : Fin cfg0.N) (p : Fin 5000) (q : Fin 32) :
    ((cfg0.win 13).blk t).view.emb (ix2 p q) = (ix2 (row t p) q : S1000000x32.Idx) := by
  refine funext fun a => Fin.ext ?_
  have e := idx_facts t
  match a with
  | ⟨0, _⟩ => show win0_13.index t (0 : Fin 2) * 5000 + 1 * p.val = t.val * 5000 + p.val; omega
  | ⟨1, _⟩ => show win0_13.index t (1 : Fin 2) * 32 + 1 * q.val = q.val; omega

/-- WHAT POINT t WRITES BACK is block t of `Mlp.result` of the arrays as the region finds them. -/
theorem flushed_eq (c : Dev nD) (t : Fin cfg0.N) :
    (dats m 0 c).flushed 13 t = ((cfg0.win 13).blk t).view.read (Elt Ideal) (Mlp.result (V m c main_arg0) (V m c main_arg1) (V m c main_arg2) (V m c main_v0) (V m c main_arg4) (V m c main_arg5) (V m c main_arg6) (V m c main_v1) (V m c main_arg8) (V m c main_arg9) (V m c main_arg10) (V m c main_v2) (V m c main_arg12)) := by
  rw [Value.flushed13]
  funext j
  obtain ⟨p, q, rfl⟩ : ∃ (p : Fin 5000) (q : Fin 32), j = ix2 p q := ⟨j 0, j 1, eq_ix2 j⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) = Mlp.result (V m c main_arg0) (V m c main_arg1) (V m c main_arg2) (V m c main_v0) (V m c main_arg4) (V m c main_arg5) (V m c main_arg6) (V m c main_v1) (V m c main_arg8) (V m c main_arg9) (V m c main_arg10) (V m c main_v2) (V m c main_arg12) (((cfg0.win 13).blk t).view.emb (ix2 p q))
  rw [emb_out]
  exact block_at m c t p q

/-- An index of the result array is in point t's block iff its row is one of the block's 5000 rows. -/
theorem mem_blk (t : Fin cfg0.N) (i : S1000000x32.Idx) :
    i ∈ ((cfg0.win 13).blk t).view.set ↔ ∀ a : Fin 2, win0_13.index t a * S5000x32.size a ≤ (i a).val ∧ (i a).val < win0_13.index t a * S5000x32.size a + S5000x32.size a := by
  show i ∈ ((View.whole main_v3).slice (win0_13.rect t)).set ↔ _
  rw [View.set_slice_whole, Rect.mem_set_unit]
  exact Iff.rfl

/-- Every index of the result array lies in the block of the point its row divided by 5000 names. -/
theorem cover (i : S1000000x32.Idx) : ∃ t : Fin cfg0.N, (cfg0.win 13).flush t = true ∧ i ∈ ((cfg0.win 13).blk t).view.set := by
  have hi0 : (i 0).val < 1000000 := (i 0).isLt
  have hi1 : (i 1).val < 32 := (i 1).isLt
  have hN : cfg0.N = 200 := N_0
  let t : Fin cfg0.N := ⟨(i 0).val / 5000, by rw [hN]; omega⟩
  have e := idx_facts t
  have ht : t.val = (i 0).val / 5000 := rfl
  refine ⟨t, flush0_13 t, ?_⟩
  rw [mem_blk]
  intro a
  match a with
  | ⟨0, _⟩ => show win0_13.index t (0 : Fin 2) * 5000 ≤ (i 0).val ∧ (i 0).val < win0_13.index t (0 : Fin 2) * 5000 + 5000; omega
  | ⟨1, _⟩ => show win0_13.index t (1 : Fin 2) * 32 ≤ (i 1).val ∧ (i 1).val < win0_13.index t (1 : Fin 2) * 32 + 32; omega

/-- The host's change of float format is the identity on the extended reals: the region finds the three weight
    matrices as launched. -/
theorem V_w1 (c : Dev nD) : (V m c main_v0 : S96x64.Idx → EReal) = m ((c : Thread nD τ).loc main_arg3) := by
  dsimp only [Gen.V, Gen.hostOps0]; after_results; rfl
theorem V_w2 (c : Dev nD) : (V m c main_v1 : S160x64.Idx → EReal) = m ((c : Thread nD τ).loc main_arg7) := by
  dsimp only [Gen.V, Gen.hostOps0]; after_results; rfl
theorem V_w3 (c : Dev nD) : (V m c main_v2 : S64x32.Idx → EReal) = m ((c : Thread nD τ).loc main_arg11) := by
  dsimp only [Gen.V, Gen.hostOps0]; after_results; rfl

/-- THE RESULT ARRAY after the run: `Mlp.result` of the argument arrays as launched. -/
theorem final (c : Dev nD) :
    (dats m 0 c).arrAt 13 cfg0.N
      = Mlp.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  rw [(dats m 0 c).arrAt_eq_of_cover 13 (Mlp.result (V m c main_arg0) (V m c main_arg1) (V m c main_arg2) (V m c main_v0) (V m c main_arg4) (V m c main_arg5) (V m c main_arg6) (V m c main_v1) (V m c main_arg8) (V m c main_arg9) (V m c main_arg10) (V m c main_v2) (V m c main_arg12)) (fun t _ => flushed_eq m c t) cover]
  rw [V_w1, V_w2, V_w3, V_main_arg0, V_main_arg1, V_main_arg2, V_main_arg4, V_main_arg5, V_main_arg6, V_main_arg8, V_main_arg9,
    V_main_arg10, V_main_arg12]

/-- The run re-posted: the result array at `Mlp.result` of the arguments, the arguments unchanged. -/
theorem run : θ_run defs (onTc (τ := τ) (main (F := Ideal))) ⟨m, fun _ => 0, ρ⟩ fun r => ∀ c : Dev nD,
      r.2.mem ((c : Thread nD τ).loc main_v3)
        = Mlp.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Whole

end
-- ==== Proof.RefFirst.lean ====
/-
  The reference's first layer, read at an entry of each array.

  The reference joins the three [1000000, 32] arrays into rows of 96, multiplies by the first weight matrix, adds
  the bias spread over the rows, rectifies, and normalises each row: its sum over the 64 features divided by 64
  is the mean, the sum of squared differences divided by 64 the variance. Read at (r, j) each stage is the
  corresponding row function of row r: a spread column reads its row's entry, a spread row the vector's entry, and
  the host's sum from the zero word is the finite sum.
-/
import proofs.«155318_j48636209660177_2_alg».proof.Proof.Gen.ReferenceIdeal.Read
import proofs.«155318_j48636209660177_2_alg».proof.Proof.Spec

noncomputable section

namespace Cert.ReferenceIdeal.Rows

open Cert.ReferenceIdeal Cert.ReferenceIdeal.Read Idealize.ShloMosaic Idealize.ShloMosaic.ValueIdx Cert.Lib.RowJoin

variable (x0 x1 x2 : (⟨S1000000x32, .f32⟩ : BufTy).Contents (Elt Ideal)) (x3 : (⟨S96x64, .f32⟩ : BufTy).Contents (Elt Ideal))
  (x4 x5 x6 : (⟨S64, .f32⟩ : BufTy).Contents (Elt Ideal)) (x7 : (⟨S160x64, .f32⟩ : BufTy).Contents (Elt Ideal))
  (x8 x9 x10 : (⟨S64, .f32⟩ : BufTy).Contents (Elt Ideal)) (x11 : (⟨S64x32, .f32⟩ : BufTy).Contents (Elt Ideal))
  (x12 : (⟨S32, .f32⟩ : BufTy).Contents (Elt Ideal))

/-- The joined array: row r is the three input rows laid end to end. -/
theorem joined_apply (r : Fin 1000000) (q : Fin 96) :
    val_main_v0 (F := Ideal) x0 x1 x2 (ix2 r q) = Mlp.input (fun k => x0 (ix2 r k)) (fun k => x1 (ix2 r k)) (fun k => x2 (ix2 r k)) q := by
  unfold val_main_v0
  exact concat3_cols_apply (α := EReal) (R := 1000000) (n1 := 32) (n2 := 32) (n3 := 32) (N := 96) rfl x0 x1 x2 _ r q

/-- The first rectified array at (r, j): the affine map of the joined row r, rectified. -/
theorem act1_apply (r : Fin 1000000) (j : Fin 64) :
    val_main_v5 (F := Ideal) x0 x1 x2 x3 x4 (ix2 r j)
      = Mlp.relu (Mlp.affine (Mlp.input (fun k => x0 (ix2 r k)) (fun k => x1 (ix2 r k)) (fun k => x2 (ix2 r k))) (fun k g => x3 (ix2 k g)) (fun g => x4 (ix1 g)) j) := by
  rw [val_main_v5_apply, val_main_v4_apply, val_main_v1_apply, val_main_v3_apply, val_main_v2_apply, val_main_call0_v0_apply,
    val_main_call0_cst_apply]
  have el : ∀ k : Fin 96, lidx_main_v1 (ix2 r j) k = ix2 r k := fun k =>
    funext fun a => Fin.ext (by match a with | ⟨0, _⟩ => rfl | ⟨1, _⟩ => rfl)
  have er : ∀ k : Fin 96, ridx_main_v1 (ix2 r j) k = ix2 k j := fun k =>
    funext fun a => Fin.ext (by match a with | ⟨0, _⟩ => rfl | ⟨1, _⟩ => rfl)
  have eb : idx_main_v2 (idx_main_v3 (ix2 r j)) = ix1 j :=
    funext fun a => Fin.ext (by match a with | ⟨0, _⟩ => rfl)
  simp only [el, er, eb, joined_apply]
  rfl

/-- The first normalised array at (r, j) is the row normalisation of row r of the first rectified array, at j. -/
theorem norm1_apply (r : Fin 1000000) (j : Fin 64) :
    val_main_v29 (F := Ideal) x0 x1 x2 x3 x4 x5 x6 (ix2 r j)
      = Mlp.norm (fun k => val_main_v5 (F := Ideal) x0 x1 x2 x3 x4 (ix2 r k)) (fun k => x5 (ix1 k)) (fun k => x6 (ix1 k)) j := by
  -- the mean of row r, kept as a column
  have hmean : ∀ u : Fin 1, val_main_v9 (F := Ideal) x0 x1 x2 x3 x4 (ix2 r u) = Mlp.mean (fun k => val_main_v5 (F := Ideal) x0 x1 x2 x3 x4 (ix2 r k)) := by
    intro u
    rw [val_main_v9_apply, val_main_v7_apply, val_main_v6_apply, val_main_v8_apply, val_main_cst_0_apply,
      val_main_cst_apply]
    have e : ∀ k : Fin 64, idx_main_v6 (idx_main_v7 (ix2 r u)) k = ix2 r k := fun k =>
      funext fun a => Fin.ext (by match a with | ⟨0, _⟩ => rfl | ⟨1, _⟩ => rfl)
    simp only [e, Ideal.ofBits_def, Ideal.ofBits_zero_f32, zero_add]
    rfl
  -- the centred entries of row r
  have hcen : ∀ q : Fin 64, val_main_v11 (F := Ideal) x0 x1 x2 x3 x4 (ix2 r q) = val_main_v5 (F := Ideal) x0 x1 x2 x3 x4 (ix2 r q) - Mlp.mean (fun k => val_main_v5 (F := Ideal) x0 x1 x2 x3 x4 (ix2 r k)) := by
    intro q
    rw [val_main_v11_apply, val_main_v10_apply]
    have e : idx_main_v10 (ix2 r q) = ix2 r (0 : Fin 1) :=
      funext fun a => Fin.ext (by match a with | ⟨0, _⟩ => rfl | ⟨1, _⟩ => rfl)
    rw [e, hmean]
    rfl
  -- the variance of row r, kept as a column
  have hvar : ∀ u : Fin 1, val_main_v16 (F := Ideal) x0 x1 x2 x3 x4 (ix2 r u)
      = Mlp.mean (fun k => (val_main_v5 (F := Ideal) x0 x1 x2 x3 x4 (ix2 r k) - Mlp.mean (fun k => val_main_v5 (F := Ideal) x0 x1 x2 x3 x4 (ix2 r k))) * (val_main_v5 (F := Ideal) x0 x1 x2 x3 x4 (ix2 r k) - Mlp.mean (fun k => val_main_v5 (F := Ideal) x0 x1 x2 x3 x4 (ix2 r k)))) := by
    intro u
    rw [val_main_v16_apply, val_main_v14_apply, val_main_v13_apply, val_main_v15_apply, val_main_cst_2_apply,
      val_main_cst_1_apply]
    have e : ∀ k : Fin 64, idx_main_v13 (idx_main_v14 (ix2 r u)) k = ix2 r k := fun k =>
      funext fun a => Fin.ext (by match a with | ⟨0, _⟩ => rfl | ⟨1, _⟩ => rfl)
    simp only [e, val_main_v12_apply, hcen, Ideal.ofBits_def, Ideal.ofBits_zero_f32, zero_add]
    rfl
  rw [val_main_v29_apply, val_main_v26_apply, val_main_v23_apply, val_main_v18_apply, val_main_v17_apply,
    val_main_v22_apply, val_main_v21_apply, val_main_v20_apply, val_main_v19_apply, val_main_cst_3_apply,
    val_main_v25_apply, val_main_v24_apply, val_main_v28_apply, val_main_v27_apply]
  have e1 : idx_main_v17 (ix2 r j) = ix2 r (0 : Fin 1) :=
    funext fun a => Fin.ext (by match a with | ⟨0, _⟩ => rfl | ⟨1, _⟩ => rfl)
  have e2 : idx_main_v22 (ix2 r j) = ix2 r (0 : Fin 1) :=
    funext fun a => Fin.ext (by match a with | ⟨0, _⟩ => rfl | ⟨1, _⟩ => rfl)
  have e3 : idx_main_v24 (idx_main_v25 (ix2 r j)) = ix1 j :=
    funext fun a => Fin.ext (by match a with | ⟨0, _⟩ => rfl)
  have e4 : idx_main_v27 (idx_main_v28 (ix2 r j)) = ix1 j :=
    funext fun a => Fin.ext (by match a with | ⟨0, _⟩ => rfl)
  rw [e1, e2, e3, e4, hmean, hvar]
  rfl

end Cert.ReferenceIdeal.Rows

end
-- ==== Proof.RefSecond.lean ====
/-
  The reference's second and third layers, and its result at an entry.

  The first normalised array and the joined input array are joined again into rows of 160 and multiplied by the
  second weight matrix in ONE product; the row's sum over the 160 joined features is the sum over the 64
  normalised features plus the sum over the 96 input features (`Mlp.affine_join`), which is the form the
  kernel computes. Bias, rectifier and normalisation follow as in the first layer, then the last affine map.
  Together: entry (r, c) of the reference's result is the output row of row r of the three input arrays, at c.
-/
import proofs.«155318_j48636209660177_2_alg».proof.Proof.RefFirst

noncomputable section

namespace Cert.ReferenceIdeal.Rows

open Cert.ReferenceIdeal Cert.ReferenceIdeal.Read Idealize.ShloMosaic Idealize.ShloMosaic.ValueIdx Cert.Lib.RowJoin

variable (x0 x1 x2 : (⟨S1000000x32, .f32⟩ : BufTy).Contents (Elt Ideal)) (x3 : (⟨S96x64, .f32⟩ : BufTy).Contents (Elt Ideal))
  (x4 x5 x6 : (⟨S64, .f32⟩ : BufTy).Contents (Elt Ideal)) (x7 : (⟨S160x64, .f32⟩ : BufTy).Contents (Elt Ideal))
  (x8 x9 x10 : (⟨S64, .f32⟩ : BufTy).Contents (Elt Ideal)) (x11 : (⟨S64x32, .f32⟩ : BufTy).Contents (Elt Ideal))
  (x12 : (⟨S32, .f32⟩ : BufTy).Contents (Elt Ideal))

/-- The array of 160 joined features: row r is the first normalised row followed by the joined input row. -/
theorem rejoined_apply (r : Fin 1000000) (q : Fin 160) :
    val_main_v30 (F := Ideal) x0 x1 x2 x3 x4 x5 x6 (ix2 r q)
      = join2 (N := 160) rfl (fun k => val_main_v29 (F := Ideal) x0 x1 x2 x3 x4 x5 x6 (ix2 r k))
          (fun k => val_main_v0 (F := Ideal) x0 x1 x2 (ix2 r k)) q := by
  unfold val_main_v30
  exact concat2_cols_apply (α := EReal) (R := 1000000) (n1 := 64) (n2 := 96) (N := 160) rfl
    (val_main_v29 (F := Ideal) x0 x1 x2 x3 x4 x5 x6) (val_main_v0 (F := Ideal) x0 x1 x2) _ r q

/-- The second rectified array at (r, j): the split affine map of the normalised row and the joined row,
    rectified. -/
theorem act2_apply (r : Fin 1000000) (j : Fin 64) :
    val_main_v35 (F := Ideal) x0 x1 x2 x3 x4 x5 x6 x7 x8 (ix2 r j)
      = Mlp.relu (Mlp.affine2 (fun k => val_main_v29 (F := Ideal) x0 x1 x2 x3 x4 x5 x6 (ix2 r k))
          (fun k => val_main_v0 (F := Ideal) x0 x1 x2 (ix2 r k)) (fun k g => x7 (ix2 k g)) (fun g => x8 (ix1 g)) j) := by
  rw [val_main_v35_apply, val_main_v34_apply, val_main_v31_apply, val_main_v33_apply, val_main_v32_apply, val_main_call1_v0_apply,
    val_main_call1_cst_apply]
  have el : ∀ k : Fin 160, lidx_main_v31 (ix2 r j) k = ix2 r k := fun k =>
    funext fun a => Fin.ext (by match a with | ⟨0, _⟩ => rfl | ⟨1, _⟩ => rfl)
  have er : ∀ k : Fin 160, ridx_main_v31 (ix2 r j) k = ix2 k j := fun k =>
    funext fun a => Fin.ext (by match a with | ⟨0, _⟩ => rfl | ⟨1, _⟩ => rfl)
  have eb : idx_main_v32 (idx_main_v33 (ix2 r j)) = ix1 j :=
    funext fun a => Fin.ext (by match a with | ⟨0, _⟩ => rfl)
  simp only [el, er, eb, rejoined_apply]
  refine Eq.trans ?_ (congrArg Mlp.relu (Mlp.affine_join (fun k => val_main_v29 (F := Ideal) x0 x1 x2 x3 x4 x5 x6 (ix2 r k))
    (fun k => val_main_v0 (F := Ideal) x0 x1 x2 (ix2 r k)) (fun k g => x7 (ix2 k g)) (fun g => x8 (ix1 g)) j))
  rfl

/-- The second normalised array at (r, j) is the row normalisation of row r of the second rectified array, at j. -/
theorem norm2_apply (r : Fin 1000000) (j : Fin 64) :
    val_main_v59 (F := Ideal) x0 x1 x2 x3 x4 x5 x6 x7 x8 x9 x10 (ix2 r j)
      = Mlp.norm (fun k => val_main_v35 (F := Ideal) x0 x1 x2 x3 x4 x5 x6 x7 x8 (ix2 r k)) (fun k => x9 (ix1 k)) (fun k => x10 (ix1 k)) j := by
  -- the mean of row r, kept as a column
  have hmean : ∀ u : Fin 1, val_main_v39 (F := Ideal) x0 x1 x2 x3 x4 x5 x6 x7 x8 (ix2 r u) = Mlp.mean (fun k => val_main_v35 (F := Ideal) x0 x1 x2 x3 x4 x5 x6 x7 x8 (ix2 r k)) := by
    intro u
    rw [val_main_v39_apply, val_main_v37_apply, val_main_v36_apply, val_main_v38_apply, val_main_cst_5_apply,
      val_main_cst_4_apply]
    have e : ∀ k : Fin 64, idx_main_v36 (idx_main_v37 (ix2 r u)) k = ix2 r k := fun k =>
      funext fun a => Fin.ext (by match a with | ⟨0, _⟩ => rfl | ⟨1, _⟩ => rfl)
    simp only [e, Ideal.ofBits_def, Ideal.ofBits_zero_f32, zero_add]
    rfl
  -- the centred entries of row r
  have hcen : ∀ q : Fin 64, val_main_v41 (F := Ideal) x0 x1 x2 x3 x4 x5 x6 x7 x8 (ix2 r q) = val_main_v35 (F := Ideal) x0 x1 x2 x3 x4 x5 x6 x7 x8 (ix2 r q) - Mlp.mean (fun k => val_main_v35 (F := Ideal) x0 x1 x2 x3 x4 x5 x6 x7 x8 (ix2 r k)) := by
    intro q
    rw [val_main_v41_apply, val_main_v40_apply]
    have e : idx_main_v40 (ix2 r q) = ix2 r (0 : Fin 1) :=
      funext fun a => Fin.ext (by match a with | ⟨0, _⟩ => rfl | ⟨1, _⟩ => rfl)
    rw [e, hmean]
    rfl
  -- the variance of row r, kept as a column
  have hvar : ∀ u : Fin 1, val_main_v46 (F := Ideal) x0 x1 x2 x3 x4 x5 x6 x7 x8 (ix2 r u)
      = Mlp.mean (fun k => (val_main_v35 (F := Ideal) x0 x1 x2 x3 x4 x5 x6 x7 x8 (ix2 r k) - Mlp.mean (fun k => val_main_v35 (F := Ideal) x0 x1 x2 x3 x4 x5 x6 x7 x8 (ix2 r k))) * (val_main_v35 (F := Ideal) x0 x1 x2 x3 x4 x5 x6 x7 x8 (ix2 r k) - Mlp.mean (fun k => val_main_v35 (F := Ideal) x0 x1 x2 x3 x4 x5 x6 x7 x8 (ix2 r k)))) := by
    intro u
    rw [val_main_v46_apply, val_main_v44_apply, val_main_v43_apply, val_main_v45_apply, val_main_cst_7_apply,
      val_main_cst_6_apply]
    have e : ∀ k : Fin 64, idx_main_v43 (idx_main_v44 (ix2 r u)) k = ix2 r k := fun k =>
      funext fun a => Fin.ext (by match a with | ⟨0, _⟩ => rfl | ⟨1, _⟩ => rfl)
    simp only [e, val_main_v42_apply, hcen, Ideal.ofBits_def, Ideal.ofBits_zero_f32, zero_add]
    rfl
  rw [val_main_v59_apply, val_main_v56_apply, val_main_v53_apply, val_main_v48_apply, val_main_v47_apply,
    val_main_v52_apply, val_main_v51_apply, val_main_v50_apply, val_main_v49_apply, val_main_cst_8_apply,
    val_main_v55_apply, val_main_v54_apply, val_main_v58_apply, val_main_v57_apply]
  have e1 : idx_main_v47 (ix2 r j) = ix2 r (0 : Fin 1) :=
    funext fun a => Fin.ext (by match a with | ⟨0, _⟩ => rfl | ⟨1, _⟩ => rfl)
  have e2 : idx_main_v52 (ix2 r j) = ix2 r (0 : Fin 1) :=
    funext fun a => Fin.ext (by match a with | ⟨0, _⟩ => rfl | ⟨1, _⟩ => rfl)
  have e3 : idx_main_v54 (idx_main_v55 (ix2 r j)) = ix1 j :=
    funext fun a => Fin.ext (by match a with | ⟨0, _⟩ => rfl)
  have e4 : idx_main_v57 (idx_main_v58 (ix2 r j)) = ix1 j :=
    funext fun a => Fin.ext (by match a with | ⟨0, _⟩ => rfl)
  rw [e1, e2, e3, e4, hmean, hvar]
  rfl

/-- The result at (r, c): the last affine map of the second normalised row r. -/
theorem last_apply (r : Fin 1000000) (c : Fin 32) :
    val_main_v63 (F := Ideal) x0 x1 x2 x3 x4 x5 x6 x7 x8 x9 x10 x11 x12 (ix2 r c)
      = Mlp.affine (fun k => val_main_v59 (F := Ideal) x0 x1 x2 x3 x4 x5 x6 x7 x8 x9 x10 (ix2 r k)) (fun k g => x11 (ix2 k g))
          (fun g => x12 (ix1 g)) c := by
  rw [val_main_v63_apply, val_main_v60_apply, val_main_v62_apply, val_main_v61_apply]
  have el : ∀ k : Fin 64, lidx_main_v60 (ix2 r c) k = ix2 r k := fun k =>
    funext fun a => Fin.ext (by match a with | ⟨0, _⟩ => rfl | ⟨1, _⟩ => rfl)
  have er : ∀ k : Fin 64, ridx_main_v60 (ix2 r c) k = ix2 k c := fun k =>
    funext fun a => Fin.ext (by match a with | ⟨0, _⟩ => rfl | ⟨1, _⟩ => rfl)
  have eb : idx_main_v61 (idx_main_v62 (ix2 r c)) = ix1 c :=
    funext fun a => Fin.ext (by match a with | ⟨0, _⟩ => rfl)
  simp only [el, er, eb]
  rfl

/-- THE REFERENCE'S RESULT at (r, c): the output row of row r of the three input arrays, at c. -/
theorem result_apply (r : Fin 1000000) (c : Fin 32) :
    val_main_v63 (F := Ideal) x0 x1 x2 x3 x4 x5 x6 x7 x8 x9 x10 x11 x12 (ix2 r c)
      = Mlp.output (Mlp.input (fun k => x0 (ix2 r k)) (fun k => x1 (ix2 r k)) (fun k => x2 (ix2 r k)))
          (fun k g => x3 (ix2 k g)) (fun g => x4 (ix1 g)) (fun g => x5 (ix1 g)) (fun g => x6 (ix1 g))
          (fun k g => x7 (ix2 k g)) (fun g => x8 (ix1 g)) (fun g => x9 (ix1 g)) (fun g => x10 (ix1 g))
          (fun k g => x11 (ix2 k g)) (fun g => x12 (ix1 g)) c := by
  rw [last_apply]
  unfold Mlp.output
  refine congrArg (fun v => Mlp.affine v _ _ c) (funext fun k => ?_)
  rw [norm2_apply]
  unfold Mlp.hidden2
  refine congrArg (fun v => Mlp.norm v _ _ k) (funext fun q => ?_)
  rw [act2_apply]
  refine congrArg₂ (fun u v => Mlp.relu (Mlp.affine2 u v _ _ q)) (funext fun i => ?_) (funext fun i => ?_)
  · rw [norm1_apply]
    unfold Mlp.hidden1
    refine congrArg (fun v => Mlp.norm v _ _ i) (funext fun q' => ?_)
    exact act1_apply x0 x1 x2 x3 x4 r q'
  · exact joined_apply x0 x1 x2 r i

end Cert.ReferenceIdeal.Rows

end
-- ==== Proof.RefWhole.lean ====
/-
  The reference's result as one array: it is `Mlp.result` of the arguments, entry by entry.
-/
import proofs.«155318_j48636209660177_2_alg».proof.Proof.RefSecond
import proofs.«155318_j48636209660177_2_alg».proof.Proof.Result

noncomputable section

namespace Cert.ReferenceIdeal.Rows

open Cert.ReferenceIdeal Cert.ReferenceIdeal.Read Idealize.ShloMosaic Idealize.ShloMosaic.ValueIdx

variable (x0 x1 x2 : (⟨S1000000x32, .f32⟩ : BufTy).Contents (Elt Ideal)) (x3 : (⟨S96x64, .f32⟩ : BufTy).Contents (Elt Ideal))
  (x4 x5 x6 : (⟨S64, .f32⟩ : BufTy).Contents (Elt Ideal)) (x7 : (⟨S160x64, .f32⟩ : BufTy).Contents (Elt Ideal))
  (x8 x9 x10 : (⟨S64, .f32⟩ : BufTy).Contents (Elt Ideal)) (x11 : (⟨S64x32, .f32⟩ : BufTy).Contents (Elt Ideal))
  (x12 : (⟨S32, .f32⟩ : BufTy).Contents (Elt Ideal))

/-- THE REFERENCE'S RESULT ARRAY is `Mlp.result` of the argument arrays. -/
theorem result_eq : val_main_v63 (F := Ideal) x0 x1 x2 x3 x4 x5 x6 x7 x8 x9 x10 x11 x12 = Mlp.result x0 x1 x2 x3 x4 x5 x6 x7 x8 x9 x10 x11 x12 := by
  funext i
  obtain ⟨r, c, rfl⟩ : ∃ (r : Fin 1000000) (c : Fin 32), i = ix2 r c := ⟨i 0, i 1, eq_ix2 i⟩
  rw [Mlp.result_ix2]
  exact result_apply x0 x1 x2 x3 x4 x5 x6 x7 x8 x9 x10 x11 x12 r c

end Cert.ReferenceIdeal.Rows

end
-- ==== Proof.lean ====
/-
  A three-layer perceptron with two layer normalisations, row by row: the rows of three [E, 32] arrays are joined
  into rows of 96 features, passed through an affine map to 64 features, a rectifier and a layer normalisation,
  then joined again with the 96 input features and passed through a second affine map, rectifier and
  normalisation, and finally through an affine map to 32 features. The kernel computes 5000 rows per grid point
  and splits the second product into the part over the 64 normalised features and the part over the 96 input
  features; the reference computes all rows at once with one product over the 160 joined features. Over the
  extended reals both are the same function `Mlp.result` of the arguments, entry by entry: a finite sum over 160
  terms is the sum over its first 64 plus the sum over its last 96, which needs commutativity and associativity of
  addition only, so the finiteness of the inputs is never used.

  The argument in three steps. The kernel body's result at entry (p, c) of a block is the output row of row p of the
  three staged input blocks, at c. Grid point t stages rows 5000 t … 5000 t + 4999, so what it writes back is block
  t of `Mlp.result`, and the 200 blocks tile the million rows. Each stage of the reference, read at (r, j), is the
  corresponding row function of row r, so its result at (r, c) is the output row of row r, at c.
-/
import proofs.«155318_j48636209660177_2_alg».proof.Defs
import proofs.«155318_j48636209660177_2_alg».proof.Proof.Gen.Kernel
import proofs.«155318_j48636209660177_2_alg».proof.Proof.Gen.Kernel.Skeleton
import proofs.«155318_j48636209660177_2_alg».proof.Proof.Gen.Kernel.Launch
import proofs.«155318_j48636209660177_2_alg».proof.Proof.Gen.Kernel.Points
import proofs.«155318_j48636209660177_2_alg».proof.Proof.Gen.Kernel.Frame
import proofs.«155318_j48636209660177_2_alg».proof.Proof.Gen.KernelIdeal
import proofs.«155318_j48636209660177_2_alg».proof.Proof.Gen.KernelIdeal.Skeleton
import proofs.«155318_j48636209660177_2_alg».proof.Proof.Gen.KernelIdeal.Launch
import proofs.«155318_j48636209660177_2_alg».proof.Proof.Gen.KernelIdeal.Points
import proofs.«155318_j48636209660177_2_alg».proof.Proof.Gen.KernelIdeal.Frame
import proofs.«155318_j48636209660177_2_alg».proof.Proof.Gen.KernelIdeal.Value
import proofs.«155318_j48636209660177_2_alg».proof.Proof.Gen.ReferenceIdeal
import proofs.«155318_j48636209660177_2_alg».proof.Proof.Gen.ReferenceIdeal.Run
import proofs.«155318_j48636209660177_2_alg».proof.Proof.Gen.ReferenceIdeal.Read
import proofs.«155318_j48636209660177_2_alg».proof.Proof.Gen.Pre_finite_inputs
import proofs.«155318_j48636209660177_2_alg».proof.Proof.KernelWhole
import proofs.«155318_j48636209660177_2_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the array `Mlp.result` of the arguments. -/
theorem algebraic : Cert.algebraic_KernelIdeal_ReferenceIdeal := by
  intro m ρ m' ρ' _ hagree
  refine ⟨fun c => Cert.Mlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.Rows.result_eq]
  obtain ⟨h0, h1, h2, h3, h4, h5, h6, h7, h8, h9, h10, h11, h12, -⟩ := hagree c
  rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
